-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S16384x4096 : Shape := ⟨2, ![16384, 4096]⟩
abbrev S16384 : Shape := ⟨1, ![16384]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S4x2048x4096 .f32) (main_arg1 : IVec S16384x4096 32) (main_arg2 : FVec F S16384 .f32) (main_arg3 : IVec S16384 32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S16384 .f32 := Host.absf main_arg2
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  main_v8
-- ==== Kernel.lean ====
abbrev S4x2048x4096 : Shape := ⟨3, ![4, 2048, 4096]⟩
abbrev S16384x4096 : Shape := ⟨2, ![16384, 4096]⟩
abbrev S16384 : Shape := ⟨1, ![16384]⟩
abbrev S8192x4096 : Shape := ⟨2, ![8192, 4096]⟩
abbrev S16384x1 : Shape := ⟨2, ![16384, 1]⟩
abbrev S8192x16384 : Shape := ⟨2, ![8192, 16384]⟩
abbrev S1024x1024 : Shape := ⟨2, ![1024, 1024]⟩
abbrev S1024x1 : Shape := ⟨2, ![1024, 1]⟩
abbrev S4x2048x16384 : Shape := ⟨3, ![4, 2048, 16384]⟩

abbrev nBuf : Space → Nat
  | .hbm => 9
  | .vmem => 11
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .i32⟩
  | .hbm, ⟨2, _⟩ => ⟨S16384, .f32⟩
  | .hbm, ⟨3, _⟩ => ⟨S16384, .i32⟩
  | .hbm, ⟨4, _⟩ => ⟨S8192x4096, .f32⟩
  | .hbm, ⟨5, _⟩ => ⟨S16384x1, .f32⟩
  | .hbm, ⟨6, _⟩ => ⟨S16384x1, .i32⟩
  | .hbm, ⟨7, _⟩ => ⟨S8192x16384, .f32⟩
  | .hbm, ⟨8, _⟩ => ⟨S4x2048x16384, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .i32⟩
  | .local _ .vmem, ⟨3, _⟩ => ⟨S1024x1024, .i32⟩
  | .local _ .vmem, ⟨4, _⟩ => ⟨S1024x1, .f32⟩
  | .local _ .vmem, ⟨5, _⟩ => ⟨S1024x1, .f32⟩
  | .local _ .vmem, ⟨6, _⟩ => ⟨S1024x1, .i32⟩
  | .local _ .vmem, ⟨7, _⟩ => ⟨S1024x1, .i32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 16, 4], ![false, false, false]⟩

def k0_cond2 (i : grid0.Coords) : BitVec 1 :=
  let arg2 : BitVec 32 := BitVec.ofNat 32 (i 2).val
  let c3_i32 : BitVec 32 := 3#32
  let v24 : BitVec 1 := Scalar.cmpi .eq arg2 c3_i32
  let v25 : BitVec 32 := Scalar.extui v24
  let c0_i32_12 : BitVec 32 := 0#32
  let v26 : BitVec 1 := Scalar.cmpi .ne v25 c0_i32_12
  v26

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4x2048x4096_S8192x4096 : S4x2048x4096.ShapeCasts S8192x4096
  shapeCasts_S16384_S16384x1 : S16384.ShapeCasts S16384x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x1024 : S1024x1.Broadcasts S1024x1024
  shapeCasts_S8192x16384_S4x2048x16384 : S8192x16384.ShapeCasts S4x2048x16384
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S16384x4096.size a
  hwx0_1 : ∀ i : grid0.Coords, EltTy.bits .i32 = 32 ∨ (Rect.block (s := S16384x4096) S1024x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .f32 = 32 ∨ (Rect.block (s := S16384x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S16384x1.size a
  hwx0_3 : ∀ i : grid0.Coords, EltTy.bits .i32 = 32 ∨ (Rect.block (s := S16384x1) S1024x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x16384.size a
  hwx0_4 : ∀ i : grid0.Coords, EltTy.bits .f32 = 32 ∨ (Rect.block (s := S8192x16384) S1024x1024.size (cc0_transform_4 i) (hinb0_4 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S16384x4096 : Shape := ⟨2, ![16384, 4096]⟩
abbrev S16384 : Shape := ⟨1, ![16384]⟩
abbrev S16384x1 : Shape := ⟨2, ![16384, 1]⟩
abbrev S4x2048x16384 : Shape := ⟨3, ![4, 2048, 16384]⟩

abbrev nBuf : Space → Nat
  | .hbm => 13
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .i32⟩
  | .hbm, ⟨2, _⟩ => ⟨S16384, .f32⟩
  | .hbm, ⟨3, _⟩ => ⟨S16384, .i32⟩
  | .hbm, ⟨4, _⟩ => ⟨S16384x1, .f32⟩
  | .hbm, ⟨5, _⟩ => ⟨S16384x4096, .f32⟩
  | .hbm, ⟨6, _⟩ => ⟨S16384, .f32⟩
  | .hbm, ⟨7, _⟩ => ⟨S16384x1, .f32⟩
  | .hbm, ⟨8, _⟩ => ⟨S16384x4096, .f32⟩
  | .hbm, ⟨9, _⟩ => ⟨S16384x4096, .f32⟩
  | .hbm, ⟨10, _⟩ => ⟨S16384x4096, .f32⟩
  | .hbm, ⟨11, _⟩ => ⟨S16384x4096, .f32⟩
  | .hbm, ⟨12, _⟩ => ⟨S4x2048x16384, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  bcast_S16384_S16384x1_0 : S16384.BroadcastsInDim S16384x1 (![0] : Fin 1 → Fin S16384x1.rank)
  bcast_S16384x1_S16384x4096_0_1 : S16384x1.BroadcastsInDim S16384x4096 (![0, 1] : Fin 2 → Fin S16384x4096.rank)
  dot_S4x2048x4096_S16384x4096_S4x2048x16384_2_1_01_0_n_n_wf : DotDims.WF S4x2048x4096 S16384x4096 S4x2048x16384 [2] [1] [0, 1] [0] [] []

variable [Facts₀]

def dot_S4x2048x4096_S16384x4096_S4x2048x16384_2_1_01_0_n_n : DotDims S4x2048x4096 S16384x4096 S4x2048x16384 where
  lhsContracting := [2]
  rhsContracting := [1]
  lhsNonContracting := [0, 1]
  rhsNonContracting := [0]
  lhsBatch := []
  rhsBatch := []
  wf := dot_S4x2048x4096_S16384x4096_S4x2048x16384_2_1_01_0_n_n_wf

class Facts : Prop extends Facts₀ where

variable [Facts]
-- ==== Proof.Spec.lean ====
/-
  The arithmetic of a per-channel dequantized linear layer, apart from any program.

  An output entry is a dot product over the 4096 input features,
      out[r, n] = ∑ u, x[r, u] * ((wq[n, u] - zp[n]) * scale[n]),
  the integers read exactly as reals.  The kernel forms it in four steps of 1024 features, each step adding one
  block's dot product to a running total that starts at zero; so the running total after k steps is the sum over
  the first 1024 * k features.  Partial sums are taken over an initial segment of the naturals, with the operands
  extended by zero outside their ranges, so that "one more block" is one more stretch of a range sum.
-/
import Idealize.ShloMosaic.PureOps.Ideal
import Idealize.ShloMosaic.Lib.ValueIdx

noncomputable section

open scoped BigOperators

namespace Cert.QuantLinear

open Idealize.ShloMosaic Idealize.ShloMosaic.ValueIdx

/-- A function of two bounded coordinates, extended by zero to every pair of naturals. -/
def ext2 {a b : ℕ} (f : Fin a → Fin b → EReal) (r u : ℕ) : EReal :=
  if h : r < a ∧ u < b then f ⟨r, h.1⟩ ⟨u, h.2⟩ else 0

/-- Inside the ranges the extension is the function. -/
theorem ext2_of_lt {a b : ℕ} (f : Fin a → Fin b → EReal) {r u : ℕ} (hr : r < a) (hu : u < b) :
    ext2 f r u = f ⟨r, hr⟩ ⟨u, hu⟩ := dif_pos ⟨hr, hu⟩

/-- The dequantized weight of output channel `n` at input feature `u`: the stored integer minus the channel's zero
    point, both exact, times the channel's scale. -/
def deq (wq : (⟨2, ![16384, 4096]⟩ : Shape).Idx → BitVec 32) (sc : (⟨2, ![16384, 1]⟩ : Shape).Idx → EReal)
    (zp : (⟨2, ![16384, 1]⟩ : Shape).Idx → BitVec 32) (n : Fin 16384) (u : Fin 4096) : EReal :=
  (FloatOps.sitofp (F := Ideal) .f32 (wq (ix2 n u)) - FloatOps.sitofp (F := Ideal) .f32 (zp (ix2 n (0 : Fin 1))))
    * sc (ix2 n (0 : Fin 1))

/-- The activations as a function of row and feature. -/
def act (x : (⟨2, ![8192, 4096]⟩ : Shape).Idx → EReal) (r : Fin 8192) (u : Fin 4096) : EReal := x (ix2 r u)

/-- The dot product of row `r` of `X` and row `n` of `D` over the first `L` features. -/
def partialDot (X D : ℕ → ℕ → EReal) (r n L : ℕ) : EReal := ∑ u ∈ Finset.range L, X r u * D n u

/-- Over no features it is zero. -/
theorem partialDot_zero (X D : ℕ → ℕ → EReal) (r n : ℕ) : partialDot X D r n 0 = 0 := Finset.sum_range_zero _

/-- One more block of 1024 features: the partial dot product over `L` features plus the block's dot product is the
    partial dot product over `L + 1024`. -/
theorem partialDot_step (X D : ℕ → ℕ → EReal) (r n L : ℕ) :
    partialDot X D r n L + ∑ kk : Fin 1024, X r (L + kk.val) * D n (L + kk.val) = partialDot X D r n (L + 1024) := by
  unfold partialDot
  rw [Finset.sum_range_add, Finset.sum_range (fun kk => X r (L + kk) * D n (L + kk))]

/-- Over all 4096 features, inside the operands' ranges, it is the dot product of the two rows. -/
theorem partialDot_full {a b : ℕ} (x : Fin a → Fin 4096 → EReal) (d : Fin b → Fin 4096 → EReal) {r n : ℕ}
    (hr : r < a) (hn : n < b) :
    partialDot (ext2 x) (ext2 d) r n 4096 = ∑ u : Fin 4096, x ⟨r, hr⟩ u * d ⟨n, hn⟩ u := by
  unfold partialDot
  rw [Finset.sum_range (fun u => ext2 x r u * ext2 d n u)]
  exact Finset.sum_congr rfl fun u _ => by rw [ext2_of_lt x hr u.isLt, ext2_of_lt d hn u.isLt]

/-- The layer's output as an array of 8192 rows and 16384 channels. -/
def out2 (x : (⟨2, ![8192, 4096]⟩ : Shape).Idx → EReal) (wq : (⟨2, ![16384, 4096]⟩ : Shape).Idx → BitVec 32)
    (sc : (⟨2, ![16384, 1]⟩ : Shape).Idx → EReal) (zp : (⟨2, ![16384, 1]⟩ : Shape).Idx → BitVec 32) :
    (⟨2, ![8192, 16384]⟩ : Shape).Idx → EReal :=
  fun j => partialDot (ext2 (act x)) (ext2 (deq wq sc zp)) (j 0).val (j 1).val 4096

/-- At row `r` and channel `n` it is the dot product over all features. -/
theorem out2_apply (x : (⟨2, ![8192, 4096]⟩ : Shape).Idx → EReal) (wq : (⟨2, ![16384, 4096]⟩ : Shape).Idx → BitVec 32)
    (sc : (⟨2, ![16384, 1]⟩ : Shape).Idx → EReal) (zp : (⟨2, ![16384, 1]⟩ : Shape).Idx → BitVec 32)
    (r : Fin 8192) (n : Fin 16384) :
    out2 x wq sc zp (ix2 r n) = ∑ u : Fin 4096, x (ix2 r u) * deq wq sc zp n u :=
  partialDot_full (act x) (deq wq sc zp) r.isLt n.isLt

/-- THE LAYER: for batch `b`, position `s` and output channel `o`, the dot product over the input features of the
    activation with the dequantized weight — the function both programs compute. -/
def layer (x : (⟨3, ![4, 2048, 4096]⟩ : Shape).Idx → EReal) (wq : (⟨2, ![16384, 4096]⟩ : Shape).Idx → BitVec 32)
    (sc : (⟨1, ![16384]⟩ : Shape).Idx → EReal) (zp : (⟨1, ![16384]⟩ : Shape).Idx → BitVec 32) :
    (⟨3, ![4, 2048, 16384]⟩ : Shape).Idx → EReal :=
  fun i => ∑ u : Fin 4096, x (ix3 (n0 := 4) (n1 := 2048) (n2 := 4096) (i 0) (i 1) u)
    * ((FloatOps.sitofp (F := Ideal) .f32 (wq (ix2 (n0 := 16384) (n1 := 4096) (i 2) u))
        - FloatOps.sitofp (F := Ideal) .f32 (zp (ix1 (n := 16384) (i 2)))) * sc (ix1 (n := 16384) (i 2)))

theorem layer_apply (x : (⟨3, ![4, 2048, 4096]⟩ : Shape).Idx → EReal) (wq : (⟨2, ![16384, 4096]⟩ : Shape).Idx → BitVec 32)
    (sc : (⟨1, ![16384]⟩ : Shape).Idx → EReal) (zp : (⟨1, ![16384]⟩ : Shape).Idx → BitVec 32)
    (b : Fin 4) (s : Fin 2048) (o : Fin 16384) :
    layer x wq sc zp (ix3 b s o) = ∑ u : Fin 4096, x (ix3 b s u)
      * ((FloatOps.sitofp (F := Ideal) .f32 (wq (ix2 o u)) - FloatOps.sitofp (F := Ideal) .f32 (zp (ix1 o))) * sc (ix1 o)) := rfl

end Cert.QuantLinear

end
-- ==== Proof.Payload.lean ====
/-
  What one grid step computes, entry by entry, over the extended reals.

  The step's stored block is the running total plus the product of the activation block (1024 rows by 1024 features)
  with the transposed dequantized weight block (1024 channels by 1024 features): at row `p` and channel `q`,
      total[p, q] + ∑ kk, x[p, kk] * ((wq[q, kk] - zp[q]) * scale[q]).
  The changes of float format on the way into the product are the identity here, the zero point and the scale of a
  channel are columns broadcast along the feature axis, and the matrix product contracts the feature axis of both
  operands.  The block stored at the first step of a run is all zeros.
-/
import proofs.«181748_j79130477461727_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The matrix product's dimension numbers: both operands contract their feature axis. -/
abbrev dims : DotDims S1024x1024 S1024x1024 S1024x1024 := dot_S1024x1024_S1024x1024_S1024x1024_1_1_0_0_n_n

theorem lhs_row (i : S1024x1024.Idx) (k : dims.contr.Idx) : (dims.lhsIdx i k 0).val = (i 0).val := by
  unfold DotDims.lhsIdx
  rw [dif_neg (show ¬(0 : Fin S1024x1024.rank) ∈ dims.lhsBatch by decide),
    dif_pos (show (0 : Fin S1024x1024.rank) ∈ dims.lhsNonContracting by decide)]
  rfl

theorem lhs_feature (i : S1024x1024.Idx) (k : dims.contr.Idx) : (dims.lhsIdx i k 1).val = (k ⟨0, by decide⟩).val :=
  dims.lhsIdx_val_of_single rfl i k

theorem rhs_channel (i : S1024x1024.Idx) (k : dims.contr.Idx) : (dims.rhsIdx i k 0).val = (i 1).val := by
  unfold DotDims.rhsIdx
  rw [dif_neg (show ¬(0 : Fin S1024x1024.rank) ∈ dims.rhsBatch by decide),
    dif_pos (show (0 : Fin S1024x1024.rank) ∈ dims.rhsNonContracting by decide)]
  rfl

theorem rhs_feature (i : S1024x1024.Idx) (k : dims.contr.Idx) : (dims.rhsIdx i k 1).val = (k ⟨0, by decide⟩).val :=
  dims.rhsIdx_val_of_single rfl i k

/-- The product of a block of rows with the transpose of a block of channel rows, into a zero accumulator, is at
    `(p, q)` the dot product of row `p` and channel row `q`. -/
theorem matmul_rows_apply (l r : FVec Ideal S1024x1024 .bf16) (p q : Fin 1024) :
    FloatOps.matmul dims none l r (constant S1024x1024 .f32 0x00000000#32) (ix2 p q)
      = ∑ kk : Fin 1024, l (ix2 p kk) * r (ix2 q kk) := by
  rw [Ideal.matmul_constant_zero_apply, ← Equiv.sum_comp (contrEquiv1 dims 1024 rfl rfl).symm]
  refine Finset.sum_congr rfl fun kk _ => ?_
  have hk := contrEquiv1_symm_val dims 1024 rfl rfl kk
  have el : dims.lhsIdx (ix2 p q) ((contrEquiv1 dims 1024 rfl rfl).symm kk) = ix2 p kk := funext fun a => Fin.ext (by
    match a with
    | ⟨0, _⟩ => exact lhs_row _ _
    | ⟨1, _⟩ => exact (lhs_feature _ _).trans hk)
  have er : dims.rhsIdx (ix2 p q) ((contrEquiv1 dims 1024 rfl rfl).symm kk) = ix2 q kk := funext fun a => Fin.ext (by
    match a with
    | ⟨0, _⟩ => exact rhs_channel _ _
    | ⟨1, _⟩ => exact (rhs_feature _ _).trans hk)
  rw [el, er]

/-- A column of per-channel values broadcast along the feature axis reads, at channel `q` and any feature, the
    channel's value. -/
theorem column_broadcast_apply {α : Type} (v : S1024x1.Idx → α) (h : S1024x1.Broadcasts S1024x1024) (q kk : Fin 1024) :
    broadcastTo S1024x1024 v h (ix2 q kk) = v (ix2 q (0 : Fin 1)) :=
  broadcastTo_apply v h _ _ fun a => match a with
    | ⟨0, _⟩ => by show q.val = if (1024 : Nat) = 1 then 0 else q.val; rw [if_neg (by decide)]
    | ⟨1, _⟩ => by show 0 = if (1 : Nat) = 1 then 0 else kk.val; rw [if_pos rfl]

/-- THE STEP at an entry: the running total there plus the dot product of activation row `p` with the dequantized
    weights of channel `q` over the block's 1024 features. -/
theorem step_apply (xb : Vec Ideal S1024x1024 .f32) (wb : Vec Ideal S1024x1024 .i32) (zb : Vec Ideal S1024x1 .i32)
    (sb : Vec Ideal S1024x1 .f32) (acc : Vec Ideal S1024x1024 .f32) (p q : Fin 1024) :
    k0_pay2 (F := Ideal) xb wb zb sb acc (ix2 p q)
      = acc (ix2 p q) + ∑ kk : Fin 1024, xb (ix2 p kk)
          * ((FloatOps.sitofp (F := Ideal) .f32 (wb (ix2 q kk)) - FloatOps.sitofp (F := Ideal) .f32 (zb (ix2 q (0 : Fin 1))))
              * sb (ix2 q (0 : Fin 1))) := by
  unfold k0_pay2
  simp only [shapeCast_self]
  refine congrArg (acc (ix2 p q) + ·) ?_
  refine (matmul_rows_apply _ _ p q).trans ?_
  refine Finset.sum_congr rfl fun kk _ => ?_
  refine congrArg (xb (ix2 p kk) * ·) ?_
  show (FloatOps.sitofp (F := Ideal) .f32 (wb (ix2 q kk)) - broadcastTo S1024x1024 (sitofp (F := Ideal) .f32 zb) _ (ix2 q kk))
      * broadcastTo S1024x1024 sb _ (ix2 q kk) = _
  rw [column_broadcast_apply, column_broadcast_apply]
  rfl

/-- The block the first step of a run stores before accumulating is zero everywhere. -/
theorem reset_apply (j : S1024x1024.Idx) : k0_pay1 (F := Ideal) j = 0 := by
  unfold k0_pay1
  simp only [shapeCast_self]
  exact Ideal.ofBits_zero_f32

end Cert.KernelIdeal.Payload

end
-- ==== Proof.Cases.lean ====
/-
  What each kind of grid step leaves behind, as values.

  The reduction over the 4096 input features is cut into runs of four consecutive grid steps.  A running total lives
  in a buffer that persists from one step to the next.  Every step replaces it by "total + this block's product";
  the first step of a run first resets it to zero, and the last step of a run copies the new total to the output
  block.  Here each of these is read back as the step function applied to the blocks the step was given: the stores
  cover their buffers whole, and a load that follows a covering store reads what was stored.
-/
import proofs.«181748_j79130477461727_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Cases

open Cert.KernelIdeal Cert.KernelIdeal.Gen

variable {F : FTy → Type} [FloatOps F]

theorem hz : (![0, 0] : Fin 2 → Nat) = fun _ => 0 := funext fun a => by fin_cases a <;> rfl

/-- In a step that neither starts nor ends a run (cases of the middle), the running total held over from the step
    before is replaced by the step's value over it. -/
theorem total_mid (c : Dev nD) (i : grid0.Coords) (a3 : Memref sig .tc .vmem S1024x1024 .f32) (h3 : a3.IsWhole) (a4 : Memref sig .tc .vmem S1024x1024 .i32) (h4 : a4.IsWhole) (a5 : Memref sig .tc .vmem S1024x1 .f32) (h5 : a5.IsWhole) (a6 : Memref sig .tc .vmem S1024x1 .i32) (h6 : a6.IsWhole) (a7 : Memref sig .tc .vmem S1024x1024 .f32) (h7 : a7.IsWhole) (a8 : Memref sig .tc .vmem S1024x1024 .f32) (h8 : a8.IsWhole) (hc0 : ¬cond0_0 i) (hc1 : ¬cond0_1 i)
    (x0 : Vec F S1024x1024 .f32) (x1 : Vec F S1024x1024 .i32) (x2 : Vec F S1024x1 .f32) (x3 : Vec F S1024x1 .i32) (xs0 : Vec F S1024x1024 .f32) :
    sout0_B_0 c i a3 h3 a4 h4 a5 h5 a6 h6 a7 h7 a8 h8 hc0 hc1 x0 x1 x2 x3 xs0 = k0_pay2 x0 x1 x3 x2 xs0 := by
  unfold sout0_B_0
  rw [View.read_writes_eq_canon _ _ _ (scover0_B_0 c i a3 h3 a4 h4 a5 h5 a6 h6 a7 h7 a8 h8 hc0 hc1 x0 x1 x2 x3 xs0)]
  unfold kernelRun0_B
  dsimp only
  rw [View.canon_unit_zero hz]
  simp only [View.readAt_eq_ld, h3.read_unread, h4.read_unread, h5.read_unread, h6.read_unread, h8.read_unread,
    View.ld_unit_zero (S := S1024x1024) hz, View.ld_unit_zero (S := S1024x1) hz]

/-- In the first step of a run the running total is first set to the zero block, read back, and replaced by the
    step's value over that zero block. -/
theorem total_first (c : Dev nD) (i : grid0.Coords) (a3 : Memref sig .tc .vmem S1024x1024 .f32) (h3 : a3.IsWhole) (a4 : Memref sig .tc .vmem S1024x1024 .i32) (h4 : a4.IsWhole) (a5 : Memref sig .tc .vmem S1024x1 .f32) (h5 : a5.IsWhole) (a6 : Memref sig .tc .vmem S1024x1 .i32) (h6 : a6.IsWhole) (a7 : Memref sig .tc .vmem S1024x1024 .f32) (h7 : a7.IsWhole) (a8 : Memref sig .tc .vmem S1024x1024 .f32) (h8 : a8.IsWhole) (hc0 : cond0_0 i) (hc1 : ¬cond0_1 i)
    (x0 : Vec F S1024x1024 .f32) (x1 : Vec F S1024x1024 .i32) (x2 : Vec F S1024x1 .f32) (x3 : Vec F S1024x1 .i32) :
    sout0_A_0 c i a3 h3 a4 h4 a5 h5 a6 h6 a7 h7 a8 h8 hc0 hc1 x0 x1 x2 x3 = k0_pay2 x0 x1 x3 x2 k0_pay1 := by
  unfold sout0_A_0
  rw [View.read_writes_eq_canon _ _ _ (scover0_A_0 c i a3 h3 a4 h4 a5 h5 a6 h6 a7 h7 a8 h8 hc0 hc1 x0 x1 x2 x3)]
  unfold kernelRun0_A
  dsimp only
  sl_unfold_words
  rw [View.canon_cons_unit_zero (S := S1024x1024) hz, View.readCov_unit_zero (S := S1024x1024) _ hz]
  simp only [View.readAt_eq_ld, h3.read_unread, h4.read_unread, h5.read_unread, h6.read_unread,
    View.ld_unit_zero (S := S1024x1024) hz, View.ld_unit_zero (S := S1024x1) hz]

/-- In the last step of a run the running total is replaced as in the middle steps, -/
theorem total_last (c : Dev nD) (i : grid0.Coords) (a3 : Memref sig .tc .vmem S1024x1024 .f32) (h3 : a3.IsWhole) (a4 : Memref sig .tc .vmem S1024x1024 .i32) (h4 : a4.IsWhole) (a5 : Memref sig .tc .vmem S1024x1 .f32) (h5 : a5.IsWhole) (a6 : Memref sig .tc .vmem S1024x1 .i32) (h6 : a6.IsWhole) (a7 : Memref sig .tc .vmem S1024x1024 .f32) (h7 : a7.IsWhole) (a8 : Memref sig .tc .vmem S1024x1024 .f32) (h8 : a8.IsWhole) (hc0 : ¬cond0_0 i) (hc1 : cond0_1 i)
    (x0 : Vec F S1024x1024 .f32) (x1 : Vec F S1024x1024 .i32) (x2 : Vec F S1024x1 .f32) (x3 : Vec F S1024x1 .i32) (xs0 : Vec F S1024x1024 .f32) :
    sout0_C_0 c i a3 h3 a4 h4 a5 h5 a6 h6 a7 h7 a8 h8 hc0 hc1 x0 x1 x2 x3 xs0 = k0_pay2 x0 x1 x3 x2 xs0 := by
  unfold sout0_C_0
  rw [View.read_writes_eq_canon _ _ _ (scover0_C_0 c i a3 h3 a4 h4 a5 h5 a6 h6 a7 h7 a8 h8 hc0 hc1 x0 x1 x2 x3 xs0)]
  unfold kernelRun0_C
  dsimp only
  sl_unfold_words
  rw [View.canon_unit_zero hz]
  simp only [View.readAt_eq_ld, h3.read_unread, h4.read_unread, h5.read_unread, h6.read_unread, h8.read_unread,
    View.ld_unit_zero (S := S1024x1024) hz, View.ld_unit_zero (S := S1024x1) hz]

/-- and the output block is a copy of the new running total, read back after it was stored. -/
theorem out_last (c : Dev nD) (i : grid0.Coords) (a3 : Memref sig .tc .vmem S1024x1024 .f32) (h3 : a3.IsWhole) (a4 : Memref sig .tc .vmem S1024x1024 .i32) (h4 : a4.IsWhole) (a5 : Memref sig .tc .vmem S1024x1 .f32) (h5 : a5.IsWhole) (a6 : Memref sig .tc .vmem S1024x1 .i32) (h6 : a6.IsWhole) (a7 : Memref sig .tc .vmem S1024x1024 .f32) (h7 : a7.IsWhole) (a8 : Memref sig .tc .vmem S1024x1024 .f32) (h8 : a8.IsWhole) (hc0 : ¬cond0_0 i) (hc1 : cond0_1 i)
    (x0 : Vec F S1024x1024 .f32) (x1 : Vec F S1024x1024 .i32) (x2 : Vec F S1024x1 .f32) (x3 : Vec F S1024x1 .i32) (xs0 : Vec F S1024x1024 .f32) :
    out0_C_4 c i a3 h3 a4 h4 a5 h5 a6 h6 a7 h7 a8 h8 hc0 hc1 x0 x1 x2 x3 xs0 = k0_pay2 x0 x1 x3 x2 xs0 := by
  unfold out0_C_4
  rw [View.read_writes_eq_canon _ _ _ (cover0_C_4 c i a3 h3 a4 h4 a5 h5 a6 h6 a7 h7 a8 h8 hc0 hc1 x0 x1 x2 x3 xs0)]
  unfold kernelRun0_C
  dsimp only
  sl_unfold_words
  rw [View.canon_unit_zero hz, View.readCov_unit_zero (S := S1024x1024) _ hz]
  simp only [View.readAt_eq_ld, h3.read_unread, h4.read_unread, h5.read_unread, h6.read_unread, h8.read_unread,
    View.ld_unit_zero (S := S1024x1024) hz, View.ld_unit_zero (S := S1024x1) hz]

end Cert.KernelIdeal.Cases
end
-- ==== Proof.Accum.lean ====
/-
  The running total over a run of four grid steps is a partial dot product.

  The 8 × 16 × 4 grid is walked with the feature-block axis fastest: point `t` works on row block `t / 64`, channel
  block `(t / 4) % 16` and feature block `t % 4`.  The four points of a run share their row block and channel block.
  After the point with feature block `k` the persistent buffer holds, at `(p, q)`, the dot product of activation row
  `1024 (t / 64) + p` with the dequantized weights of channel `1024 ((t / 4) % 16) + q` over the features below
  `1024 (k + 1)`: the first point of a run adds its block's product to zero, each later point adds its block's product
  to what the point before left.  Sums are over initial segments of the naturals, so one more block is one more
  stretch of the range (only associativity of addition is used; no finiteness of the operands).
-/
import proofs.«181748_j79130477461727_1_alg».proof.Proof.Gen.KernelIdeal.Frame
import proofs.«181748_j79130477461727_1_alg».proof.Proof.Spec
import proofs.«181748_j79130477461727_1_alg».proof.Proof.Payload
import proofs.«181748_j79130477461727_1_alg».proof.Proof.Cases
import Idealize.ShloMosaic.Lib.Pipeline.Value

noncomputable section

open scoped BigOperators
open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.QuantLinear

variable (m : (ℓ : Loc nD τ sig) → Buf (Elt Ideal) ℓ) (ρ : Dev nD → PrngReg)

/-- The four arrays the grid works on, as the call finds them: the activations flattened to 8192 rows, the stored
    integer weights, and the per-channel scales and zero points as columns. -/
def X2 (c : Dev nD) : S8192x4096.Idx → EReal := V m c main_v0
def WQ (c : Dev nD) : S16384x4096.Idx → BitVec 32 := V m c main_arg1
def SC (c : Dev nD) : S16384x1.Idx → EReal := V m c main_v1
def ZP (c : Dev nD) : S16384x1.Idx → BitVec 32 := V m c main_v2

/-- The activations and the dequantized weights as functions of two naturals, zero outside their ranges. -/
abbrev XN (c : Dev nD) : ℕ → ℕ → EReal := ext2 (act (X2 m c))
abbrev DN (c : Dev nD) : ℕ → ℕ → EReal := ext2 (deq (WQ m c) (SC m c) (ZP m c))

/-- The four input blocks at grid point `t`. -/
def xb (c : Dev nD) (t : Fin cfg0.N) : Vec Ideal S1024x1024 .f32 := iblk m c 0 t
def wb (c : Dev nD) (t : Fin cfg0.N) : Vec Ideal S1024x1024 .i32 := iblk m c 1 t
def sb (c : Dev nD) (t : Fin cfg0.N) : Vec Ideal S1024x1 .f32 := iblk m c 2 t
def zb (c : Dev nD) (t : Fin cfg0.N) : Vec Ideal S1024x1 .i32 := iblk m c 3 t

/-- Grid point `t` of the 8 × 16 × 4 grid, counted with the feature-block axis fastest, is row block `t / 64`, channel
    block `(t / 4) % 16` and feature block `t % 4`; each window's block index is read off these. -/
theorem idx_facts : ∀ t : Fin cfg0.N,
    win0_0.index t (0 : Fin 2) = t.val / 64 ∧ win0_0.index t (1 : Fin 2) = t.val % 4
    ∧ win0_1.index t (0 : Fin 2) = (t.val / 4) % 16 ∧ win0_1.index t (1 : Fin 2) = t.val % 4
    ∧ win0_2.index t (0 : Fin 2) = (t.val / 4) % 16 ∧ win0_2.index t (1 : Fin 2) = 0
    ∧ win0_3.index t (0 : Fin 2) = (t.val / 4) % 16 ∧ win0_3.index t (1 : Fin 2) = 0
    ∧ win0_4.index t (0 : Fin 2) = t.val / 64 ∧ win0_4.index t (1 : Fin 2) = (t.val / 4) % 16 :=
  (by decide +kernel : ∀ t : Fin grid0.N, _)

/-- Entry `(p, kk)` of the activation block at point `t` is the activation at row `1024 (t / 64) + p` and feature
    `1024 (t % 4) + kk`. -/
theorem x_read (c : Dev nD) (t : Fin cfg0.N) (p kk : Fin 1024) (r : Fin 8192) (u : Fin 4096)
    (hr : r.val = 1024 * (t.val / 64) + p.val) (hu : u.val = 1024 * (t.val % 4) + kk.val) :
    xb m c t (ix2 p kk) = X2 m c (ix2 r u) := by
  obtain ⟨e0, e1, -⟩ := idx_facts t
  unfold xb iblk X2
  rw [View.read_apply]
  show V m c main_v0 _ = V m c main_v0 _
  refine congrArg (V m c main_v0) (funext fun a => Fin.ext ?_)
  match a with
  | ⟨0, _⟩ => show win0_0.index t (0 : Fin 2) * 1024 + 1 * p.val = r.val; omega
  | ⟨1, _⟩ => show win0_0.index t (1 : Fin 2) * 1024 + 1 * kk.val = u.val; omega

/-- Entry `(q, kk)` of the weight block is the stored weight of channel `1024 ((t / 4) % 16) + q` at that feature. -/
theorem wq_read (c : Dev nD) (t : Fin cfg0.N) (q kk : Fin 1024) (n : Fin 16384) (u : Fin 4096)
    (hn : n.val = 1024 * ((t.val / 4) % 16) + q.val) (hu : u.val = 1024 * (t.val % 4) + kk.val) :
    wb m c t (ix2 q kk) = WQ m c (ix2 n u) := by
  obtain ⟨-, -, e0, e1, -⟩ := idx_facts t
  unfold wb iblk WQ
  rw [View.read_apply]
  show V m c main_arg1 _ = V m c main_arg1 _
  refine congrArg (V m c main_arg1) (funext fun a => Fin.ext ?_)
  match a with
  | ⟨0, _⟩ => show win0_1.index t (0 : Fin 2) * 1024 + 1 * q.val = n.val; omega
  | ⟨1, _⟩ => show win0_1.index t (1 : Fin 2) * 1024 + 1 * kk.val = u.val; omega

/-- Entry `q` of the scale column at point `t` is that channel's scale; -/
theorem sc_read (c : Dev nD) (t : Fin cfg0.N) (q : Fin 1024) (n : Fin 16384)
    (hn : n.val = 1024 * ((t.val / 4) % 16) + q.val) :
    sb m c t (ix2 q (0 : Fin 1)) = SC m c (ix2 n (0 : Fin 1)) := by
  obtain ⟨-, -, -, -, e0, e1, -⟩ := idx_facts t
  unfold sb iblk SC
  rw [View.read_apply]
  show V m c main_v1 _ = V m c main_v1 _
  refine congrArg (V m c main_v1) (funext fun a => Fin.ext ?_)
  match a with
  | ⟨0, _⟩ => show win0_2.index t (0 : Fin 2) * 1024 + 1 * q.val = n.val; omega
  | ⟨1, _⟩ => show win0_2.index t (1 : Fin 2) * 1 + 1 * 0 = 0; omega

/-- and of the zero-point column, that channel's zero point. -/
theorem zp_read (c : Dev nD) (t : Fin cfg0.N) (q : Fin 1024) (n : Fin 16384)
    (hn : n.val = 1024 * ((t.val / 4) % 16) + q.val) :
    zb m c t (ix2 q (0 : Fin 1)) = ZP m c (ix2 n (0 : Fin 1)) := by
  obtain ⟨-, -, -, -, -, -, e0, e1, -⟩ := idx_facts t
  unfold zb iblk ZP
  rw [View.read_apply]
  show V m c main_v2 _ = V m c main_v2 _
  refine congrArg (V m c main_v2) (funext fun a => Fin.ext ?_)
  match a with
  | ⟨0, _⟩ => show win0_3.index t (0 : Fin 2) * 1024 + 1 * q.val = n.val; omega
  | ⟨1, _⟩ => show win0_3.index t (1 : Fin 2) * 1 + 1 * 0 = 0; omega

/-- Partial dot products over equal rows, channels and lengths are equal. -/
theorem partialDot_congr (X D : ℕ → ℕ → EReal) {r r' n n' L L' : ℕ} (hr : r = r') (hn : n = n') (hL : L = L') :
    partialDot X D r n L = partialDot X D r' n' L' := by subst hr hn hL; rfl

/-- The dot product of one block pair, in terms of the arrays: features `1024 (t % 4) … 1024 (t % 4) + 1023` of
    activation row `1024 (t / 64) + p` against the dequantized weights of channel `1024 ((t / 4) % 16) + q`. -/
theorem block_dot (c : Dev nD) (t : Fin cfg0.N) (p q : Fin 1024) :
    ∑ kk : Fin 1024, xb m c t (ix2 p kk)
        * ((FloatOps.sitofp (F := Ideal) .f32 (wb m c t (ix2 q kk))
            - FloatOps.sitofp (F := Ideal) .f32 (zb m c t (ix2 q (0 : Fin 1))))
          * sb m c t (ix2 q (0 : Fin 1)))
      = ∑ kk : Fin 1024, XN m c (1024 * (t.val / 64) + p.val) (1024 * (t.val % 4) + kk.val)
          * DN m c (1024 * ((t.val / 4) % 16) + q.val) (1024 * (t.val % 4) + kk.val) := by
  have hN : t.val < 512 := lt_of_lt_of_eq t.isLt (show cfg0.N = 512 from N_0)
  have hp := p.isLt
  have hq := q.isLt
  refine Finset.sum_congr rfl fun kk _ => ?_
  have hk := kk.isLt
  have hr : 1024 * (t.val / 64) + p.val < 8192 := by omega
  have hn : 1024 * ((t.val / 4) % 16) + q.val < 16384 := by omega
  have hu : 1024 * (t.val % 4) + kk.val < 4096 := by omega
  show _ = ext2 (act (X2 m c)) (1024 * (t.val / 64) + p.val) (1024 * (t.val % 4) + kk.val)
      * ext2 (deq (WQ m c) (SC m c) (ZP m c)) (1024 * ((t.val / 4) % 16) + q.val) (1024 * (t.val % 4) + kk.val)
  rw [ext2_of_lt _ hr hu, ext2_of_lt _ hn hu,
    x_read m c t p kk ⟨_, hr⟩ ⟨_, hu⟩ rfl rfl, wq_read m c t q kk ⟨_, hn⟩ ⟨_, hu⟩ rfl rfl,
    sc_read m c t q ⟨_, hn⟩ rfl, zp_read m c t q ⟨_, hn⟩ rfl]
  rfl

/-- ONE STEP OF THE RUN: if the running total at `(p, q)` is the partial dot product over the features before this
    point's block, the step's value there is the partial dot product through this block. -/
theorem step_total (c : Dev nD) (t : Fin cfg0.N) (acc : Vec Ideal S1024x1024 .f32) (p q : Fin 1024)
    (hacc : acc (ix2 p q) = partialDot (XN m c) (DN m c) (1024 * (t.val / 64) + p.val)
      (1024 * ((t.val / 4) % 16) + q.val) (1024 * (t.val % 4))) :
    k0_pay2 (F := Ideal) (xb m c t) (wb m c t) (zb m c t) (sb m c t) acc (ix2 p q)
      = partialDot (XN m c) (DN m c) (1024 * (t.val / 64) + p.val) (1024 * ((t.val / 4) % 16) + q.val)
          (1024 * (t.val % 4) + 1024) := by
  refine (Payload.step_apply (xb m c t) (wb m c t) (zb m c t) (sb m c t) acc p q).trans ?_
  rw [hacc, block_dot m c t p q, partialDot_step]

/-- The running total after a first step of a run, a middle step and a last step, and the output block after a
    last step: the step function of the point's blocks, over zero or over the total the point before left. -/
theorem total_at_first (c : Dev nD) (t : Fin cfg0.N) (h0 : t.val % 4 = 0) (h1 : ¬t.val % 4 = 3) :
    (outsAt0 m c t.val t.isLt).2 = k0_pay2 (F := Ideal) (xb m c t) (wb m c t) (zb m c t) (sb m c t) (k0_pay1 (F := Ideal)) := by
  have h := congrArg Prod.snd (outsAt0_A m c t h0 h1)
  refine h.trans ?_
  dsimp only
  have h2 := Cases.total_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)
  exact h2

theorem total_at_mid (c : Dev nD) (t : Fin cfg0.N) (h0 : ¬t.val % 4 = 0) (h1 : ¬t.val % 4 = 3) :
    (outsAt0 m c t.val t.isLt).2 = k0_pay2 (F := Ideal) (xb m c t) (wb m c t) (zb m c t) (sb m c t) (outsAt0 m c (t.val - 1) (Nat.lt_of_le_of_lt (Nat.sub_le _ _) t.isLt)).2 := by
  have h := congrArg Prod.snd (outsAt0_B m c t h0 h1)
  refine h.trans ?_
  dsimp only
  have h2 := Cases.total_mid (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2
  exact h2

theorem total_at_last (c : Dev nD) (t : Fin cfg0.N) (h0 : ¬t.val % 4 = 0) (h1 : t.val % 4 = 3) :
    (outsAt0 m c t.val t.isLt).2 = k0_pay2 (F := Ideal) (xb m c t) (wb m c t) (zb m c t) (sb m c t) (outsAt0 m c (t.val - 1) (Nat.lt_of_le_of_lt (Nat.sub_le _ _) t.isLt)).2 := by
  have h := congrArg Prod.snd (outsAt0_C m c t h0 h1)
  refine h.trans ?_
  dsimp only
  have h2 := Cases.total_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2
  exact h2

theorem out_at_last (c : Dev nD) (t : Fin cfg0.N) (h0 : ¬t.val % 4 = 0) (h1 : t.val % 4 = 3) :
    (outsAt0 m c t.val t.isLt).1 = k0_pay2 (F := Ideal) (xb m c t) (wb m c t) (zb m c t) (sb m c t) (outsAt0 m c (t.val - 1) (Nat.lt_of_le_of_lt (Nat.sub_le _ _) t.isLt)).2 := by
  have h := congrArg Prod.fst (outsAt0_C m c t h0 h1)
  refine h.trans ?_
  dsimp only
  have h2 := Cases.out_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2
  exact h2

/-- THE RUNNING TOTAL after point `n`, at entry `(p, q)`: the dot product of activation row `1024 (n / 64) + p` with
    the dequantized weights of channel `1024 ((n / 4) % 16) + q` over the first `1024 (n % 4 + 1)` features — by
    induction on the point: a first step starts from zero, every other step continues the point before, which has
    the same row block and channel block and one feature block fewer. -/
theorem total_eq (c : Dev nD) : ∀ (n : ℕ) (h : n < cfg0.N) (p q : Fin 1024),
    ((outsAt0 m c n h).2 : Vec Ideal S1024x1024 .f32) (ix2 p q)
      = partialDot (XN m c) (DN m c) (1024 * (n / 64) + p.val) (1024 * ((n / 4) % 16) + q.val) (1024 * (n % 4) + 1024)
  | 0, h, p, q => by
    refine (congrFun (total_at_first m c ⟨0, h⟩ rfl (by show ¬0 % 4 = 3; decide)) (ix2 p q)).trans ?_
    exact step_total m c ⟨0, h⟩ _ p q (by
      rw [Payload.reset_apply]; exact (partialDot_zero _ _ _ _).symm)
  | n + 1, h, p, q => by
    have hN : n + 1 < 512 := lt_of_lt_of_eq h (show cfg0.N = 512 from N_0)
    by_cases h0 : (n + 1) % 4 = 0
    · refine (congrFun (total_at_first m c ⟨n + 1, h⟩ h0 (by show ¬(n + 1) % 4 = 3; omega)) (ix2 p q)).trans ?_
      exact step_total m c ⟨n + 1, h⟩ _ p q (by
        rw [Payload.reset_apply]
        exact ((partialDot_zero _ _ _ _).symm.trans (partialDot_congr _ _ rfl rfl (by show 0 = 1024 * ((n + 1) % 4); omega))))
    · have ih := total_eq c n (Nat.lt_of_succ_lt h) p q
      have hacc : ((outsAt0 m c (n + 1 - 1) (Nat.lt_of_le_of_lt (Nat.sub_le _ _) h)).2 : Vec Ideal S1024x1024 .f32) (ix2 p q)
          = partialDot (XN m c) (DN m c) (1024 * ((n + 1) / 64) + p.val) (1024 * (((n + 1) / 4) % 16) + q.val)
              (1024 * ((n + 1) % 4)) :=
        ih.trans (partialDot_congr _ _ (by omega) (by omega) (by omega))
      by_cases h3 : (n + 1) % 4 = 3
      · refine (congrFun (total_at_last m c ⟨n + 1, h⟩ h0 h3) (ix2 p q)).trans ?_
        exact step_total m c ⟨n + 1, h⟩ _ p q hacc
      · refine (congrFun (total_at_mid m c ⟨n + 1, h⟩ h0 h3) (ix2 p q)).trans ?_
        exact step_total m c ⟨n + 1, h⟩ _ p q hacc

end Cert.KernelIdeal.Accum
end
-- ==== Proof.Final.lean ====
/-
  From blocks to the output array, and around the grid.

  The point that ends a run writes its 1024 × 1024 block back to position `(t / 64, (t / 4) % 16)` of the 8192 × 16384
  output; by then the running total is the dot product over all 4096 features, so what is written is that block of the
  output function.  The 8 × 16 positions tile the array (row `r`, channel `n` is in the block written by point
  `64 (r / 1024) + 4 (n / 1024) + 3`), hence the array ends holding the output function everywhere.  Before the grid
  the activations are flattened row-major (row `2048 b + s` is batch `b`, position `s`) and the per-channel vectors
  become columns; after it the rows are unflattened the same way.  Read through those reshapes the result at
  `(b, s, o)` is the layer's dot product.
-/
import proofs.«181748_j79130477461727_1_alg».proof.Proof.Accum
import Idealize.ShloMosaic.Lib.Pipeline.Value
import Idealize.ShloMosaic.Lib.StableHlo.Run

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.QuantLinear Cert.KernelIdeal.Accum

variable (m : (ℓ : Loc nD τ sig) → Buf (Elt Ideal) ℓ) (ρ : Dev nD → PrngReg)

/-- The layer's output on the arrays the call finds: 8192 rows by 16384 channels. -/
def OUT (c : Dev nD) : S8192x16384.Idx → EReal := out2 (X2 m c) (WQ m c) (SC m c) (ZP m c)

/-- After the last point of a run the step's value is the dot product over all 4096 features. -/
theorem last_block_apply (c : Dev nD) (t : Fin cfg0.N) (h0 : ¬t.val % 4 = 0) (h3 : t.val % 4 = 3) (y : S1024x1024.Idx) :
    k0_pay2 (F := Ideal) (xb m c t) (wb m c t) (zb m c t) (sb m c t) (outsAt0 m c (t.val - 1) (Nat.lt_of_le_of_lt (Nat.sub_le _ _) t.isLt)).2 y
      = partialDot (XN m c) (DN m c) (1024 * (t.val / 64) + (y 0).val) (1024 * ((t.val / 4) % 16) + (y 1).val) 4096 := by
  have hN : t.val < 512 := lt_of_lt_of_eq t.isLt (show cfg0.N = 512 from N_0)
  obtain ⟨p, q, rfl⟩ : ∃ (p q : Fin 1024), y = ix2 p q := ⟨y 0, y 1, eq_ix2 y⟩
  have hacc := (total_eq m c (t.val - 1) (Nat.lt_of_le_of_lt (Nat.sub_le _ _) t.isLt) p q).trans
    (partialDot_congr _ _ (r' := 1024 * (t.val / 64) + p.val) (n' := 1024 * ((t.val / 4) % 16) + q.val)
      (L' := 1024 * (t.val % 4)) (by omega) (by omega) (by omega))
  exact (step_total m c t _ p q hacc).trans (partialDot_congr _ _ rfl rfl (by omega))

/-- WHAT A LAST POINT WRITES BACK is its block of the output array: block `(t / 64, (t / 4) % 16)`. -/
theorem flushed_eq (c : Dev nD) (t : Fin cfg0.N) (hf : (cfg0.win 4).flush t = true) :
    (dats m 0 c).flushed 4 t = ((cfg0.win 4).blk t).view.read (Elt Ideal) (OUT m c) := by
  have hN : t.val < 512 := lt_of_lt_of_eq t.isLt (show cfg0.N = 512 from N_0)
  have h3 : t.val % 4 = 3 := (flush0_4 t).mp hf
  have h0 : ¬t.val % 4 = 0 := by omega
  obtain ⟨-, -, -, -, -, -, -, -, e0, e1⟩ := idx_facts t
  show (cfg0.win 4).cut (grid0.coords t) ((dats m 0 c).after 4 t) = _
  rw [after0_4, out_at_last m c t h0 h3]
  funext j
  rw [View.read_apply]
  refine (last_block_apply m c t h0 h3 j).trans ?_
  unfold OUT out2
  refine partialDot_congr _ _ ?_ ?_ rfl
  · show 1024 * (t.val / 64) + (j 0).val = win0_4.index t (0 : Fin 2) * 1024 + 1 * (j 0).val
    omega
  · show 1024 * ((t.val / 4) % 16) + (j 1).val = win0_4.index t (1 : Fin 2) * 1024 + 1 * (j 1).val
    omega

/-- An index of the output array is in point `t`'s block iff each coordinate is in the block's range. -/
theorem mem_blk (t : Fin cfg0.N) (i : S8192x16384.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v3).slice (win0_4.rect t)).set ↔ _
  rw [View.set_slice_whole, Rect.mem_set_unit]
  exact Iff.rfl

/-- Every entry of the output array lies in the block of the last point of some run: row `r` and channel `n` in the
    block of point `64 (r / 1024) + 4 (n / 1024) + 3`. -/
theorem covered (i : S8192x16384.Idx) :
    ∃ t : Fin cfg0.N, (cfg0.win 4).flush t = true ∧ i ∈ ((cfg0.win 4).blk t).view.set := by
  have hi0 : (i 0).val < 8192 := (i 0).isLt
  have hi1 : (i 1).val < 16384 := (i 1).isLt
  have hN : cfg0.N = 512 := N_0
  let t : Fin cfg0.N := ⟨64 * ((i 0).val / 1024) + 4 * ((i 1).val / 1024) + 3, by rw [hN]; omega⟩
  have ht : t.val = 64 * ((i 0).val / 1024) + 4 * ((i 1).val / 1024) + 3 := rfl
  obtain ⟨-, -, -, -, -, -, -, -, e0, e1⟩ := idx_facts t
  refine ⟨t, (flush0_4 t).mpr (by omega), ?_⟩
  rw [mem_blk]
  intro a
  match a with
  | ⟨0, _⟩ =>
    show win0_4.index t (0 : Fin 2) * 1024 ≤ (i 0).val ∧ (i 0).val < win0_4.index t (0 : Fin 2) * 1024 + 1024
    omega
  | ⟨1, _⟩ =>
    show win0_4.index t (1 : Fin 2) * 1024 ≤ (i 1).val ∧ (i 1).val < win0_4.index t (1 : Fin 2) * 1024 + 1024
    omega

/-- So the output array ends holding the layer's output. -/
theorem final (c : Dev nD) : (dats m 0 c).arrAt 4 cfg0.N = OUT m c :=
  (dats m 0 c).arrAt_eq_of_cover 4 (OUT m c) (flushed_eq m c) covered

/-- Before the grid runs the activations are flattened: row `2048 b + s` of the 8192 is batch `b`, position `s`. -/
theorem X2_eq (c : Dev nD) :
    X2 m c = shapeCast S8192x4096 (m ((c.tc : Thread nD τ).loc main_arg0)) shapeCasts_S4x2048x4096_S8192x4096 := by
  unfold X2
  show StableHlo.after hostOps0 (fun b => m (c, b)) (Proc.devRef .tc main_v0) = _
  after_results
  rfl

theorem X2_apply (c : Dev nD) (b : Fin 4) (s : Fin 2048) (u : Fin 4096) (r : Fin 8192) (hr : r.val = 2048 * b.val + s.val) :
    X2 m c (ix2 r u) = m ((c.tc : Thread nD τ).loc main_arg0) (ix3 b s u) := by
  rw [X2_eq]
  exact shapeCast_apply _ _ _ _ (by
    show (S4x2048x4096.rowMajor (ix3 b s u)).val = (S8192x4096.rowMajor (ix2 r u)).val
    rw [Shape.rowMajor_val_three, Shape.rowMajor_val_two]
    show (b.val * 2048 + s.val) * 4096 + u.val = r.val * 4096 + u.val
    omega)

/-- The scales and the zero points become columns: entry `(n, 0)` is channel `n`'s. -/
theorem SC_eq (c : Dev nD) :
    SC m c = shapeCast S16384x1 (m ((c.tc : Thread nD τ).loc main_arg2)) shapeCasts_S16384_S16384x1 := by
  unfold SC
  show StableHlo.after hostOps0 (fun b => m (c, b)) (Proc.devRef .tc main_v1) = _
  after_results
  rfl

theorem SC_apply (c : Dev nD) (n : Fin 16384) :
    SC m c (ix2 n (0 : Fin 1)) = m ((c.tc : Thread nD τ).loc main_arg2) (ix1 n) := by
  rw [SC_eq]
  exact shapeCast_apply _ _ _ _ (by
    show (S16384.rowMajor (ix1 n)).val = (S16384x1.rowMajor (ix2 n (0 : Fin 1))).val
    rw [Shape.rowMajor_val_one, Shape.rowMajor_val_two]
    show n.val = n.val * 1 + 0
    omega)

theorem ZP_eq (c : Dev nD) :
    ZP m c = shapeCast S16384x1 (m ((c.tc : Thread nD τ).loc main_arg3)) shapeCasts_S16384_S16384x1 := by
  unfold ZP
  show StableHlo.after hostOps0 (fun b => m (c, b)) (Proc.devRef .tc main_v2) = _
  after_results
  rfl

theorem ZP_apply (c : Dev nD) (n : Fin 16384) :
    ZP m c (ix2 n (0 : Fin 1)) = m ((c.tc : Thread nD τ).loc main_arg3) (ix1 n) := by
  rw [ZP_eq]
  exact shapeCast_apply _ _ _ _ (by
    show (S16384.rowMajor (ix1 n)).val = (S16384x1.rowMajor (ix2 n (0 : Fin 1))).val
    rw [Shape.rowMajor_val_one, Shape.rowMajor_val_two]
    show n.val = n.val * 1 + 0
    omega)

/-- The stored weights reach the grid as they are. -/
theorem WQ_eq (c : Dev nD) : WQ m c = m ((c.tc : Thread nD τ).loc main_arg1) := V_main_arg1 m c

/-- After the grid the 8192 rows are unflattened to 4 batches of 2048 positions. -/
theorem tail_eq (c : Dev nD) :
    Pipeline.afterTail₀ cfgs (dats m) 0 (V0 m) [hostOps1] c main_v4
      = shapeCast S4x2048x16384 (OUT m c) shapeCasts_S8192x16384_S4x2048x16384 := by
  unfold Pipeline.afterTail₀
  show StableHlo.after hostOps1 _ (Proc.devRef .tc main_v4) = _
  after_results
  have e : Pipeline.withArrays (cfgs 0).spec c (V0 m c) (fun w => (dats m 0 c).arrAt w (cfgs 0).N)
      (Proc.devRef .tc main_v3) = OUT m c :=
    (Pipeline.withArrays_arr spec0 launch0.win.arr_inj c _ _ 4).trans (final m c)
  rw [e]
  rfl

/-- THE KERNEL'S RESULT is the layer of the four arguments. -/
theorem result_eq (c : Dev nD) :
    shapeCast S4x2048x16384 (OUT m c) shapeCasts_S8192x16384_S4x2048x16384
      = layer (m ((c.tc : Thread nD τ).loc main_arg0)) (m ((c.tc : Thread nD τ).loc main_arg1))
          (m ((c.tc : Thread nD τ).loc main_arg2)) (m ((c.tc : Thread nD τ).loc main_arg3)) := by
  funext i
  obtain ⟨b, s, o, rfl⟩ : ∃ (b : Fin 4) (s : Fin 2048) (o : Fin 16384), i = ix3 b s o := ⟨i 0, i 1, i 2, eq_ix3 i⟩
  have hb := b.isLt
  have hs := s.isLt
  refine (shapeCast_apply (OUT m c) _ (ix3 b s o) (ix2 (⟨2048 * b.val + s.val, by omega⟩ : Fin 8192) o) (by
    show (S8192x16384.rowMajor (ix2 (⟨2048 * b.val + s.val, by omega⟩ : Fin 8192) o)).val = (S4x2048x16384.rowMajor (ix3 b s o)).val
    rw [Shape.rowMajor_val_two, Shape.rowMajor_val_three]
    show (2048 * b.val + s.val) * 16384 + o.val = (b.val * 2048 + s.val) * 16384 + o.val
    omega)).trans ?_
  rw [layer_apply]
  unfold OUT
  rw [out2_apply]
  refine Finset.sum_congr rfl fun u _ => ?_
  unfold deq
  rw [X2_apply m c b s u _ rfl, WQ_eq, SC_apply, ZP_apply]

/-- THE RUN, READ: every weakly fair execution ends with the result at the layer of the arguments and the
    arguments unchanged. -/
theorem run : θ_run defs (onTc (τ := τ) (main (F := Ideal))) ⟨m, fun _ => 0, ρ⟩ fun r => ∀ c : Dev nD,
      r.2.mem ((c.tc : Thread nD τ).loc main_v4)
        = layer (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨
      ((h c).2 main_v4 (Pipeline.mem_restRefs_of main_v4 (by decide) (by decide))).trans
        ((tail_eq m c).trans (result_eq m c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Final
end
-- ==== Proof.RefValue.lean ====
/-
  The reference computes the layer.

  The reference dequantizes the whole weight matrix, scale[o] * (wq[o, i] - zp[o]) with the scale and the zero point
  broadcast along the input features, and contracts it with the activations over the feature axis.  Read at batch
  `b`, position `s` and channel `o` that is the sum over the 4096 features of x[b, s, i] times that weight; the only
  difference from the layer as the kernel forms it is the order of the two factors of the weight, and multiplication
  of extended reals is commutative.
-/
import proofs.«181748_j79130477461727_1_alg».proof.Proof.Gen.ReferenceIdeal.Read
import proofs.«181748_j79130477461727_1_alg».proof.Proof.Spec

noncomputable section

open scoped BigOperators

namespace Cert.ReferenceIdeal.RefValue

open Cert.ReferenceIdeal Cert.ReferenceIdeal.Gen Cert.ReferenceIdeal.Read Cert.QuantLinear
open Idealize.ShloMosaic Idealize.ShloMosaic.ValueIdx

/-- The reference's result, as a function of the four arguments, is the layer. -/
theorem ref_eq (x0 : (⟨S4x2048x4096, .f32⟩ : BufTy).Contents (Elt Ideal)) (x1 : (⟨S16384x4096, .i32⟩ : BufTy).Contents (Elt Ideal))
    (x2 : (⟨S16384, .f32⟩ : BufTy).Contents (Elt Ideal)) (x3 : (⟨S16384, .i32⟩ : BufTy).Contents (Elt Ideal)) :
    val_main_v8 (F := Ideal) x0 x1 x2 x3 = layer x0 x1 x2 x3 := by
  funext i
  obtain ⟨b, s, o, rfl⟩ : ∃ (b : Fin 4) (s : Fin 2048) (o : Fin 16384), i = ix3 b s o := ⟨i 0, i 1, i 2, eq_ix3 i⟩
  rw [layer_apply, val_main_v8_apply]
  refine Finset.sum_congr rfl fun k _ => ?_
  have el : lidx_main_v8 (ix3 b s o) k = ix3 b s k := funext fun a => Fin.ext (by
    match a with
    | ⟨0, _⟩ => rfl
    | ⟨1, _⟩ => rfl
    | ⟨2, _⟩ => rfl)
  have er : ridx_main_v8 (ix3 b s o) k = ix2 o k := funext fun a => Fin.ext (by
    match a with
    | ⟨0, _⟩ => rfl
    | ⟨1, _⟩ => rfl)
  have e1 : idx_main_v0 (idx_main_v6 (ix2 o k)) = ix1 o := funext fun a => Fin.ext (by
    match a with
    | ⟨0, _⟩ => rfl)
  have e2 : idx_main_v3 (idx_main_v4 (ix2 o k)) = ix1 o := funext fun a => Fin.ext (by
    match a with
    | ⟨0, _⟩ => rfl)
  rw [el, er, val_main_v7_apply, val_main_v6_apply, val_main_v0_apply, val_main_v5_apply, val_main_v1_apply,
    val_main_v4_apply, val_main_v3_apply, val_main_v2_apply, e1, e2]
  simp only [Ideal.mulf_def, Ideal.subf_def]
  exact congrArg (x0 (ix3 b s k) * ·) (mul_comm _ _)

end Cert.ReferenceIdeal.RefValue

end
-- ==== Proof.lean ====
/-
  A per-channel dequantized linear layer: the tiled kernel and its plain reference are one function.

  Both programs map activations x[b, s, i] (4 × 2048 × 4096), stored integer weights wq[o, i] (16384 × 4096), scales
  scale[o] and zero points zp[o] to
      out[b, s, o] = ∑ i, x[b, s, i] * ((wq[o, i] - zp[o]) * scale[o]),
  the integers read exactly (Spec: `layer`).  The kernel flattens the batch and position axes to 8192 rows, walks an
  8 × 16 × 4 grid of 1024-wide blocks with the feature axis innermost, keeps a running total across the four feature
  blocks of a run, and writes the total out after the fourth; the running total after each point is a partial dot
  product (Accum), so the block written out is the full dot product, the blocks tile the output, and unflattening
  gives the layer (Final).  The reference dequantizes the whole matrix and contracts once; read at an index it is the
  same sum with the two factors of the weight in the other order (RefValue).  Only commutativity of multiplication
  and regrouping of a sum are used, so the finiteness of the inputs is not needed.  The idealization rewrote nothing.
-/
import proofs.«181748_j79130477461727_1_alg».proof.Defs
import proofs.«181748_j79130477461727_1_alg».proof.Proof.Gen.Kernel
import proofs.«181748_j79130477461727_1_alg».proof.Proof.Gen.Kernel.Skeleton
import proofs.«181748_j79130477461727_1_alg».proof.Proof.Gen.Kernel.Launch
import proofs.«181748_j79130477461727_1_alg».proof.Proof.Gen.Kernel.Points
import proofs.«181748_j79130477461727_1_alg».proof.Proof.Gen.Kernel.Frame
import proofs.«181748_j79130477461727_1_alg».proof.Proof.Gen.KernelIdeal
import proofs.«181748_j79130477461727_1_alg».proof.Proof.Gen.KernelIdeal.Skeleton
import proofs.«181748_j79130477461727_1_alg».proof.Proof.Gen.KernelIdeal.Launch
import proofs.«181748_j79130477461727_1_alg».proof.Proof.Gen.KernelIdeal.Points
import proofs.«181748_j79130477461727_1_alg».proof.Proof.Gen.KernelIdeal.Frame
import proofs.«181748_j79130477461727_1_alg».proof.Proof.Gen.ReferenceIdeal
import proofs.«181748_j79130477461727_1_alg».proof.Proof.Gen.ReferenceIdeal.Run
import proofs.«181748_j79130477461727_1_alg».proof.Proof.Gen.ReferenceIdeal.Read
import proofs.«181748_j79130477461727_1_alg».proof.Proof.Gen.Pre_finite_inputs
import proofs.«181748_j79130477461727_1_alg».proof.Proof.Spec
import proofs.«181748_j79130477461727_1_alg».proof.Proof.Final
import proofs.«181748_j79130477461727_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Over the extended reals both programs end with the layer of their arguments, and the arguments agree. -/
theorem algebraic : Cert.algebraic_KernelIdeal_ReferenceIdeal := by
  intro m ρ m' ρ' _ hagree
  refine ⟨fun c => Cert.QuantLinear.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.ref_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
